-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 79
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x32, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x32, .f32⟩
  | .hbm, ⟨70, _⟩ => ⟨S1600000x1, .f32⟩
  | .hbm, ⟨71, _⟩ => ⟨S1600000x32, .f32⟩
  | .hbm, ⟨72, _⟩ => ⟨S1600000x32, .f32⟩
  | .hbm, ⟨73, _⟩ => ⟨S_, .f32⟩
  | .hbm, ⟨74, _⟩ => ⟨S100000x32, .f32⟩
  | .hbm, ⟨75, _⟩ => ⟨S1600000x1, .i32⟩
  | .hbm, ⟨76, _⟩ => ⟨S100000x32, .f32⟩
  | .hbm, ⟨77, _⟩ => ⟨S1x32, .f32⟩
  | .hbm, ⟨78, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S100000x32.size a
  hwx3_4 : ∀ i : grid3.Coords, EltTy.bits .f32 = 32 ∨ (Rect.block (s := S100000x32) S10000x32.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S100000x32, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000, .f32⟩
  | .hbm, ⟨100, _⟩ => ⟨S1600000, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x32, .f32⟩
  | .hbm, ⟨110, _⟩ => ⟨S1600000x1, .f32⟩
  | .hbm, ⟨111, _⟩ => ⟨S1600000x32, .f32⟩
  | .hbm, ⟨112, _⟩ => ⟨S1600000x32, .f32⟩
  | .hbm, ⟨113, _⟩ => ⟨S_, .f32⟩
  | .hbm, ⟨114, _⟩ => ⟨S100000x32, .f32⟩
  | .hbm, ⟨115, _⟩ => ⟨S1600000x1, .i32⟩
  | .hbm, ⟨116, _⟩ => ⟨S100000x32, .f32⟩
  | .hbm, ⟨117, _⟩ => ⟨S100000, .f32⟩
  | .hbm, ⟨118, _⟩ => ⟨S100000x1, .f32⟩
  | .hbm, ⟨119, _⟩ => ⟨S100000x32, .f32⟩
  | .hbm, ⟨120, _⟩ => ⟨S100000x32, .f32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's run with its result named. The program is seven segments: host operations, a matrix-product
  region, host operations, a combine region, a matrix-product region, host operations, a combine region. Every weakly
  fair execution terminates without a fault, and on every core the final memory holds, at each buffer no region
  scopes, the contents that folding the segments over the launch memory gives (`W7`): in particular the result buffer
  holds that fold's value there, and the six argument arrays are as launched.
-/
import proofs.«142744_j67044439490828_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    value and the argument arrays as launched. -/
theorem run : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.LibPlainMatmul.lean ====
/-
  A plain two-axis matrix product into a zero accumulator, read at an index given by coordinates: for dimension
  numbers that contract the left operand's columns with the right operand's rows, an `[m, k] · [k, n]` product whose
  accumulator is the zero splat reads, at `(r, c)`, the sum over `f` of left `(r, f)` times right `(f, c)` over the
  extended reals — the same sum the host's `dot_general` with these dimension numbers reads there.
-/
import Idealize.ShloMosaic.Lib.ValueIdx
import Idealize.ShloMosaic.PureOps.Ideal.Laws

noncomputable section

namespace Cert.PlainMatmul

open Idealize.ShloMosaic Idealize.ShloMosaic.ValueIdx

/-- For dimension numbers that contract the left operand's columns with the right operand's rows (`hl0` … `hr1`: the
    operand indices at an output index and a contraction position, read off the numbers), an `[m, k] · [k, n]`
    product into the zero accumulator reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainMatmul

end
-- ==== Proof.Layer.lean ====
/-
  The dense parts of one graph-convolution layer, as functions of whole arrays over the extended reals.

  A layer's linear transform is the matrix product `rowsTimes x w`: entry `(r, c)` is the sum over `f` of
  `x (r, f) · w (f, c)`. Its combine step adds to the aggregated messages `agg` the node's own transformed row `h`
  scaled by its squared inverse-root degree (kept as a column `d` of shape `[n, 1]`) and the bias (kept as a row `b` of
  shape `[1, c]`): `combine agg h d b (r, c) = agg (r, c) + h (r, c) · d (r, 0) + b (0, c)`; the first layer then takes the
  maximum with zero (`combineRelu`).
-/
import Idealize.ShloMosaic.Lib.ValueIdx
import Idealize.ShloMosaic.PureOps.Ideal

noncomputable section

namespace Cert.Layer

open Idealize.ShloMosaic Idealize.ShloMosaic.ValueIdx

/-- The matrix product of an `[m, k]` array with a `[k, n]` array, entry by entry. -/
def rowsTimes {m k n : ℕ} (x : (⟨2, ![m, k]⟩ : Shape).Idx → EReal) (w : (⟨2, ![k, n]⟩ : Shape).Idx → EReal) :
    (⟨2, ![m, n]⟩ : Shape).Idx → EReal :=
  fun i => ∑ f : Fin k, x (ix2 (i 0) f) * w (ix2 f (i 1))

theorem rowsTimes_ix2 {m k n : ℕ} (x : (⟨2, ![m, k]⟩ : Shape).Idx → EReal) (w : (⟨2, ![k, n]⟩ : Shape).Idx → EReal)
    (r : Fin m) (c : Fin n) : rowsTimes x w (ix2 r c) = ∑ f : Fin k, x (ix2 r f) * w (ix2 f c) := rfl

/-- Aggregated messages plus the self-loop term plus the bias, entry by entry. -/
def combine {n c : ℕ} (agg h : (⟨2, ![n, c]⟩ : Shape).Idx → EReal) (d : (⟨2, ![n, 1]⟩ : Shape).Idx → EReal)
    (b : (⟨2, ![1, c]⟩ : Shape).Idx → EReal) : (⟨2, ![n, c]⟩ : Shape).Idx → EReal :=
  fun i => agg i + h i * d (ix2 (i 0) (0 : Fin 1)) + b (ix2 (0 : Fin 1) (i 1))

theorem combine_ix2 {n c : ℕ} (agg h : (⟨2, ![n, c]⟩ : Shape).Idx → EReal) (d : (⟨2, ![n, 1]⟩ : Shape).Idx → EReal)
    (b : (⟨2, ![1, c]⟩ : Shape).Idx → EReal) (r : Fin n) (q : Fin c) :
    combine agg h d b (ix2 r q) = agg (ix2 r q) + h (ix2 r q) * d (ix2 r (0 : Fin 1)) + b (ix2 (0 : Fin 1) q) := rfl

/-- The same followed by the maximum with zero. -/
def combineRelu {n c : ℕ} (agg h : (⟨2, ![n, c]⟩ : Shape).Idx → EReal) (d : (⟨2, ![n, 1]⟩ : Shape).Idx → EReal)
    (b : (⟨2, ![1, c]⟩ : Shape).Idx → EReal) : (⟨2, ![n, c]⟩ : Shape).Idx → EReal :=
  fun i => max (combine agg h d b i) (Ideal.ofBits .f32 0x00000000#32)

theorem combineRelu_ix2 {n c : ℕ} (agg h : (⟨2, ![n, c]⟩ : Shape).Idx → EReal) (d : (⟨2, ![n, 1]⟩ : Shape).Idx → EReal)
    (b : (⟨2, ![1, c]⟩ : Shape).Idx → EReal) (r : Fin n) (q : Fin c) :
    combineRelu agg h d b (ix2 r q)
      = max (agg (ix2 r q) + h (ix2 r q) * d (ix2 r (0 : Fin 1)) + b (ix2 (0 : Fin 1) q)) (Ideal.ofBits .f32 0x00000000#32) := rfl

end Cert.Layer

end
-- ==== Proof.Dense0.lean ====
/-
  Region 0 is a row-blocked matrix product: grid point `t` multiplies rows `10000·t … 10000·t + 9999` of the
  `[100000, 128]` left array by the whole `[128, 64]` right array and writes the same rows of the output. Row `r` of the
  output lies in block `r / 10000`, every block is written once, and inside a block the body's product into the zero
  accumulator is the plain sum over the contracted axis (the narrowing of the operands is the identity on the extended
  reals). So whatever the two arrays hold when the region is entered, the output array ends as their matrix product.
-/
import proofs.«142744_j67044439490828_1_alg».proof.Proof.Gen.KernelIdeal.Frame
import proofs.«142744_j67044439490828_1_alg».proof.Proof.LibPlainMatmul
import proofs.«142744_j67044439490828_1_alg».proof.Proof.Layer
import Idealize.ShloMosaic.Lib.Pipeline.Value
import Idealize.ShloMosaic.Lib.ValueIdx

noncomputable section

namespace Cert.KernelIdeal.Dense0

open Idealize.ShloMosaic Idealize.ShloMosaic.TcCoe Idealize.SL.Sem Idealize.ShloMosaic.ValueIdx
open Cert.KernelIdeal Cert.KernelIdeal.Gen Cert.Layer

variable (V : (c : Dev nD) → (b : Ref sig .tc) → Buf (Elt Ideal) ((c : Thread nD τ).loc b))

theorem origin_zero : (![0, 0] : Fin 2 → Nat) = fun _ => 0 := funext fun a => by fin_cases a <;> rfl

/-- The body's value at `(p, q)` of a block: the sum over `f` of the left block's `(p, f)` times the right's `(f, q)`. -/
theorem body_at (x0 : Vec Ideal S10000x128 .f32) (x1 : Vec Ideal S128x64 .f32) (p : Fin 10000) (q : Fin 64) :
    k0_pay1 x0 x1 (ix2 p q) = ∑ f : Fin 128, x0 (ix2 p f) * x1 (ix2 f q) := by
  unfold k0_pay1
  refine (Cert.PlainMatmul.matmul_zero_ix2_apply dot_S10000x128_S128x64_S10000x64_1_0_0_1_n_n rfl rfl
    (fun j q => ?_) (fun j q => ?_) (fun j q => ?_) (fun j q => ?_) none _ _ p q).trans ?_
  · unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  · exact dot_S10000x128_S128x64_S10000x64_1_0_0_1_n_n.lhsIdx_val_of_single rfl j q
  · exact dot_S10000x128_S128x64_S10000x64_1_0_0_1_n_n.rhsIdx_val_of_single rfl j q
  · unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl
  · rfl

/-- The printed index maps over the grid: the left operand's and the output's row block is the point itself, every
    other block coordinate is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two arrays as the region finds them. -/
theorem flushed_eq (c : Dev nD) (t : Fin cfg0.N) :
    (dat0 V c).flushed 2 t
      = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin_zero]
  simp only [View.ld_unit_zero (S := S10000x128) origin_zero, View.ld_unit_zero (S := S128x64) origin_zero]
  obtain ⟨e0, e1, e2, e3, e4, e5⟩ := index_facts t
  funext j
  obtain ⟨p, q, rfl⟩ : ∃ (p : Fin 10000) (q : Fin 64), j = ix2 p q := ⟨j 0, j 1, eq_ix2 j⟩
  refine (body_at _ _ p q).trans ?_
  let X : S100000x128.Idx → EReal := V c main_arg0
  let Y : S128x64.Idx → EReal := V c main_arg2
  show ∑ f : Fin 128, X (((cfg0.win 0).blk t).view.emb (ix2 p f)) * Y (((cfg0.win 1).blk t).view.emb (ix2 f q))
    = ∑ f : Fin 128, X (ix2 ((((cfg0.win 2).blk t).view.emb (ix2 p q)) 0) f) * Y (ix2 f ((((cfg0.win 2).blk t).view.emb (ix2 p q)) 1))
  refine Finset.sum_congr rfl fun f _ => ?_
  have h0 : ((cfg0.win 0).blk t).view.emb (ix2 p f) = ix2 ((((cfg0.win 2).blk t).view.emb (ix2 p q)) 0) f := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * f.val = f.val; omega
  have h1 : ((cfg0.win 1).blk t).view.emb (ix2 f q) = ix2 f ((((cfg0.win 2).blk t).view.emb (ix2 p q)) 1) := by
    funext a; apply Fin.ext
    match a with
    | ⟨0, _⟩ => show win0_1.index t (0 : Fin 2) * 128 + 1 * f.val = f.val; omega
    | ⟨1, _⟩ => show win0_1.index t (1 : Fin 2) * 64 + 1 * q.val = win0_2.index t (1 : Fin 2) * 64 + 1 * q.val; omega
  exact congrArg₂ (· * ·) (congrArg X h0) (congrArg Y h1)

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Every index of the output array is in some point's block: row `r` in block `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; rw [hN]; omega⟩
  obtain ⟨e0, e1, e2, e3, e4, e5⟩ := index_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the matrix product of the two arrays as the region finds them. -/
theorem array_eq (c : Dev nD) :
    (dat0 V c).arrAt 2 cfg0.N = rowsTimes (V c main_arg0) (V c main_arg2) :=
  (dat0 V c).arrAt_eq_of_cover 2 _ (fun t _ => flushed_eq V c t) cover

end Cert.KernelIdeal.Dense0

end
-- ==== Proof.Dense2.lean ====
/-
  Region 2 is a row-blocked matrix product: grid point `t` multiplies rows `10000·t … 10000·t + 9999` of the
  `[100000, 64]` left array by the whole `[64, 32]` right array and writes the same rows of the output. Row `r` of the
  output lies in block `r / 10000`, every block is written once, and inside a block the body's product into the zero
  accumulator is the plain sum over the contracted axis (the narrowing of the operands is the identity on the extended
  reals). So whatever the two arrays hold when the region is entered, the output array ends as their matrix product.
-/
import proofs.«142744_j67044439490828_1_alg».proof.Proof.Gen.KernelIdeal.Frame
import proofs.«142744_j67044439490828_1_alg».proof.Proof.LibPlainMatmul
import proofs.«142744_j67044439490828_1_alg».proof.Proof.Layer
import Idealize.ShloMosaic.Lib.Pipeline.Value
import Idealize.ShloMosaic.Lib.ValueIdx

noncomputable section

namespace Cert.KernelIdeal.Dense2

open Idealize.ShloMosaic Idealize.ShloMosaic.TcCoe Idealize.SL.Sem Idealize.ShloMosaic.ValueIdx
open Cert.KernelIdeal Cert.KernelIdeal.Gen Cert.Layer

variable (V : (c : Dev nD) → (b : Ref sig .tc) → Buf (Elt Ideal) ((c : Thread nD τ).loc b))

theorem origin_zero : (![0, 0] : Fin 2 → Nat) = fun _ => 0 := funext fun a => by fin_cases a <;> rfl

/-- The body's value at `(p, q)` of a block: the sum over `f` of the left block's `(p, f)` times the right's `(f, q)`. -/
theorem body_at (x0 : Vec Ideal S10000x64 .f32) (x1 : Vec Ideal S64x32 .f32) (p : Fin 10000) (q : Fin 32) :
    k2_pay1 x0 x1 (ix2 p q) = ∑ f : Fin 64, x0 (ix2 p f) * x1 (ix2 f q) := by
  unfold k2_pay1
  refine (Cert.PlainMatmul.matmul_zero_ix2_apply dot_S10000x64_S64x32_S10000x32_1_0_0_1_n_n rfl rfl
    (fun j q => ?_) (fun j q => ?_) (fun j q => ?_) (fun j q => ?_) none _ _ p q).trans ?_
  · unfold DotDims.lhsIdx
    rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
    rfl
  · exact dot_S10000x64_S64x32_S10000x32_1_0_0_1_n_n.lhsIdx_val_of_single rfl j q
  · exact dot_S10000x64_S64x32_S10000x32_1_0_0_1_n_n.rhsIdx_val_of_single rfl j q
  · unfold DotDims.rhsIdx
    rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
    rfl
  · rw [shapeCast_self]; rfl

/-- The printed index maps over the grid: the left operand's and the output's row block is the point itself, every
    other block coordinate is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the matrix product of the two arrays as the region finds them. -/
theorem flushed_eq (c : Dev nD) (t : Fin cfg2.N) :
    (dat2 V c).flushed 2 t
      = ((cfg2.win 2).blk t).view.read (Elt Ideal) (rowsTimes (V c main_v43) (V c main_arg4)) := by
  show (cfg2.win 2).cut (grid2.coords t) ((dat2 V c).after 2 t) = _
  rw [after2_2]
  unfold out2_2
  rw [View.canon_unit_zero origin_zero]
  simp only [View.ld_unit_zero (S := S10000x64) origin_zero, View.ld_unit_zero (S := S64x32) origin_zero]
  obtain ⟨e0, e1, e2, e3, e4, e5⟩ := index_facts t
  funext j
  obtain ⟨p, q, rfl⟩ : ∃ (p : Fin 10000) (q : Fin 32), j = ix2 p q := ⟨j 0, j 1, eq_ix2 j⟩
  refine (body_at _ _ p q).trans ?_
  let X : S100000x64.Idx → EReal := V c main_v43
  let Y : S64x32.Idx → EReal := V c main_arg4
  show ∑ f : Fin 64, X (((cfg2.win 0).blk t).view.emb (ix2 p f)) * Y (((cfg2.win 1).blk t).view.emb (ix2 f q))
    = ∑ f : Fin 64, X (ix2 ((((cfg2.win 2).blk t).view.emb (ix2 p q)) 0) f) * Y (ix2 f ((((cfg2.win 2).blk t).view.emb (ix2 p q)) 1))
  refine Finset.sum_congr rfl fun f _ => ?_
  have h0 : ((cfg2.win 0).blk t).view.emb (ix2 p f) = ix2 ((((cfg2.win 2).blk t).view.emb (ix2 p q)) 0) f := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * f.val = f.val; omega
  have h1 : ((cfg2.win 1).blk t).view.emb (ix2 f q) = ix2 f ((((cfg2.win 2).blk t).view.emb (ix2 p q)) 1) := by
    funext a; apply Fin.ext
    match a with
    | ⟨0, _⟩ => show win2_1.index t (0 : Fin 2) * 64 + 1 * f.val = f.val; omega
    | ⟨1, _⟩ => show win2_1.index t (1 : Fin 2) * 32 + 1 * q.val = win2_2.index t (1 : Fin 2) * 32 + 1 * q.val; omega
  exact congrArg₂ (· * ·) (congrArg X h0) (congrArg Y h1)

/-- An index of the output array is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v44).slice (win2_2.rect t)).set ↔ _
  rw [View.set_slice_whole, Rect.mem_set_unit]
  exact Iff.rfl

/-- Every index of the output array is in some point's block: row `r` in block `r / 10000`. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : grid2.N = 10 := N_2
  let t : Fin cfg2.N := ⟨(i 0).val / 10000, by show (i 0).val / 10000 < grid2.N; rw [hN]; omega⟩
  obtain ⟨e0, e1, e2, e3, e4, e5⟩ := index_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- The output array after the region: the matrix product of the two arrays as the region finds them. -/
theorem array_eq (c : Dev nD) :
    (dat2 V c).arrAt 2 cfg2.N = rowsTimes (V c main_v43) (V c main_arg4) :=
  (dat2 V c).arrAt_eq_of_cover 2 _ (fun t _ => flushed_eq V c t) cover

end Cert.KernelIdeal.Dense2

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.Combine1.lean ====
/-
  Region 1 is the row-blocked combine step of a layer: grid point `t` takes rows `10000·t … 10000·t + 9999` of the
  aggregated messages, of the node's own transformed rows and of the degree column, and the whole bias row, and writes
  the same rows of the output: entry `(r, c)` is `agg (r, c) + h (r, c) · d (r, 0) + b (0, c)`, then the maximum with zero. Every row lies in
  exactly one block, so whatever the four arrays hold when the region is entered, the output array ends as that
  function of them, entry by entry.
-/
import proofs.«142744_j67044439490828_1_alg».proof.Proof.Gen.KernelIdeal.Frame
import proofs.«142744_j67044439490828_1_alg».proof.Proof.LibColumnBroadcast
import proofs.«142744_j67044439490828_1_alg».proof.Proof.Layer
import Idealize.ShloMosaic.Lib.Pipeline.Value
import Idealize.ShloMosaic.Lib.ValueIdx
import Idealize.ShloMosaic.Lib.ValueLayout

noncomputable section

namespace Cert.KernelIdeal.Combine1

open Idealize.ShloMosaic Idealize.ShloMosaic.TcCoe Idealize.SL.Sem Idealize.ShloMosaic.ValueIdx
open Cert.KernelIdeal Cert.KernelIdeal.Gen Cert.Layer

variable (V : (c : Dev nD) → (b : Ref sig .tc) → Buf (Elt Ideal) ((c : Thread nD τ).loc b))

theorem origin_zero : (![0, 0] : Fin 2 → Nat) = fun _ => 0 := funext fun a => by fin_cases a <;> rfl

/-- The body's value at `(p, q)` of a block, from the four loaded blocks at their own coordinates: the degree column is
    repeated along the lanes and the bias row along the rows. -/
theorem body_at (x0 x1 : Vec Ideal S10000x64 .f32) (x2 : Vec Ideal S10000x1 .f32) (x3 : Vec Ideal S1x64 .f32)
    (p : Fin 10000) (q : Fin 64) :
    k1_pay1 x0 x1 x2 x3 (ix2 p q)
      = max (x0 (ix2 p q) + x1 (ix2 p q) * x2 (ix2 p (0 : Fin 1)) + x3 (ix2 (0 : Fin 1) q)) (Ideal.ofBits .f32 0x00000000#32) := by
  unfold k1_pay1
  simp only [shapeCast_self]
  have hd : broadcastTo S10000x64 x2 broadcasts_S10000x1_S10000x64 (ix2 p q) = x2 (ix2 p (0 : Fin 1)) :=
    Cert.Lib.ColumnBroadcast.broadcastTo_a1_ab_apply x2 broadcasts_S10000x1_S10000x64 p q
  have hb : broadcastTo S10000x64 x3 broadcasts_S1x64_S10000x64 (ix2 p q) = x3 (ix2 (0 : Fin 1) q) :=
    broadcastTo_1b_ab_apply x3 broadcasts_S1x64_S10000x64 p q
  show max (x0 (ix2 p q) + x1 (ix2 p q) * broadcastTo S10000x64 x2 broadcasts_S10000x1_S10000x64 (ix2 p q)
      + broadcastTo S10000x64 x3 broadcasts_S1x64_S10000x64 (ix2 p q)) (Ideal.ofBits .f32 0x00000000#32) = _
  rw [hd, hb]

/-- The printed index maps over the grid: the three row-blocked inputs' and the output's row block is the point itself,
    every other block coordinate is zero. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the combine of the four arrays as the region finds them. -/
theorem flushed_eq (c : Dev nD) (t : Fin cfg1.N) :
    (dat1 V c).flushed 4 t
      = ((cfg1.win 4).blk t).view.read (Elt Ideal) (combineRelu (V c main_v41) (V c main_v28) (V c main_v27) (V c main_v42)) := by
  show (cfg1.win 4).cut (grid1.coords t) ((dat1 V c).after 4 t) = _
  rw [after1_4]
  unfold out1_4
  rw [View.canon_unit_zero origin_zero]
  simp only [View.ld_unit_zero (S := S10000x64) origin_zero, View.ld_unit_zero (S := S10000x1) origin_zero, View.ld_unit_zero (S := S1x64) origin_zero]
  obtain ⟨e0, e1, e2, e3, e4, e5, e6, e7, e8, e9⟩ := index_facts t
  funext j
  obtain ⟨p, q, rfl⟩ : ∃ (p : Fin 10000) (q : Fin 64), j = ix2 p q := ⟨j 0, j 1, eq_ix2 j⟩
  refine (body_at _ _ _ _ p q).trans ?_
  let A : S100000x64.Idx → EReal := V c main_v41
  let H : S100000x64.Idx → EReal := V c main_v28
  let D : S100000x1.Idx → EReal := V c main_v27
  let B : S1x64.Idx → EReal := V c main_v42
  show max (A (((cfg1.win 0).blk t).view.emb (ix2 p q)) + H (((cfg1.win 1).blk t).view.emb (ix2 p q)) * D (((cfg1.win 2).blk t).view.emb (ix2 p (0 : Fin 1)))
      + B (((cfg1.win 3).blk t).view.emb (ix2 (0 : Fin 1) q))) (Ideal.ofBits .f32 0x00000000#32)
    = max (A (((cfg1.win 4).blk t).view.emb (ix2 p q)) + H (((cfg1.win 4).blk t).view.emb (ix2 p q)) * D (ix2 ((((cfg1.win 4).blk t).view.emb (ix2 p q)) 0) (0 : Fin 1))
      + B (ix2 (0 : Fin 1) ((((cfg1.win 4).blk t).view.emb (ix2 p q)) 1))) (Ideal.ofBits .f32 0x00000000#32)
  have h0 : ((cfg1.win 0).blk t).view.emb (ix2 p q) = ((cfg1.win 4).blk t).view.emb (ix2 p q) := by
    funext a; apply Fin.ext
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 10000 + 1 * p.val = win1_4.index t (0 : Fin 2) * 10000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 10000 + 1 * p.val = win1_4.index t (0 : Fin 2) * 10000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [h0, h1, h2, h3] <;> rfl

/-- An index of the output array is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Every index of the output array is in some point's block: row `r` in block `r / 10000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; rw [hN]; omega⟩
  obtain ⟨e0, e1, e2, e3, e4, e5, e6, e7, e8, e9⟩ := index_facts t
  have ht : t.val = (i 0).val / 10000 := rfl
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The output array after the region: the combine of the four arrays as the region finds them. -/
theorem array_eq (c : Dev nD) :
    (dat1 V c).arrAt 4 cfg1.N = combineRelu (V c main_v41) (V c main_v28) (V c main_v27) (V c main_v42) :=
  (dat1 V c).arrAt_eq_of_cover 4 _ (fun t _ => flushed_eq V c t) cover

end Cert.KernelIdeal.Combine1

end
-- ==== Proof.Combine3.lean ====
/-
  Region 3 is the row-blocked combine step of a layer: grid point `t` takes rows `10000·t … 10000·t + 9999` of the
  aggregated messages, of the node's own transformed rows and of the degree column, and the whole bias row, and writes
  the same rows of the output: entry `(r, c)` is `agg (r, c) + h (r, c) · d (r, 0) + b (0, c)`. Every row lies in
  exactly one block, so whatever the four arrays hold when the region is entered, the output array ends as that
  function of them, entry by entry.
-/
import proofs.«142744_j67044439490828_1_alg».proof.Proof.Gen.KernelIdeal.Frame
import proofs.«142744_j67044439490828_1_alg».proof.Proof.LibColumnBroadcast
import proofs.«142744_j67044439490828_1_alg».proof.Proof.Layer
import Idealize.ShloMosaic.Lib.Pipeline.Value
import Idealize.ShloMosaic.Lib.ValueIdx
import Idealize.ShloMosaic.Lib.ValueLayout

noncomputable section

namespace Cert.KernelIdeal.Combine3

open Idealize.ShloMosaic Idealize.ShloMosaic.TcCoe Idealize.SL.Sem Idealize.ShloMosaic.ValueIdx
open Cert.KernelIdeal Cert.KernelIdeal.Gen Cert.Layer

variable (V : (c : Dev nD) → (b : Ref sig .tc) → Buf (Elt Ideal) ((c : Thread nD τ).loc b))

theorem origin_zero : (![0, 0] : Fin 2 → Nat) = fun _ => 0 := funext fun a => by fin_cases a <;> rfl

/-- The body's value at `(p, q)` of a block, from the four loaded blocks at their own coordinates: the degree column is
    repeated along the lanes and the bias row along the rows. -/
theorem body_at (x0 x1 : Vec Ideal S10000x32 .f32) (x2 : Vec Ideal S10000x1 .f32) (x3 : Vec Ideal S1x32 .f32)
    (p : Fin 10000) (q : Fin 32) :
    k3_pay1 x0 x1 x2 x3 (ix2 p q)
      = x0 (ix2 p q) + x1 (ix2 p q) * x2 (ix2 p (0 : Fin 1)) + x3 (ix2 (0 : Fin 1) q) := by
  unfold k3_pay1
  simp only [shapeCast_self]
  have hd : broadcastTo S10000x32 x2 broadcasts_S10000x1_S10000x32 (ix2 p q) = x2 (ix2 p (0 : Fin 1)) :=
    Cert.Lib.ColumnBroadcast.broadcastTo_a1_ab_apply x2 broadcasts_S10000x1_S10000x32 p q
  have hb : broadcastTo S10000x32 x3 broadcasts_S1x32_S10000x32 (ix2 p q) = x3 (ix2 (0 : Fin 1) q) :=
    broadcastTo_1b_ab_apply x3 broadcasts_S1x32_S10000x32 p q
  show x0 (ix2 p q) + x1 (ix2 p q) * broadcastTo S10000x32 x2 broadcasts_S10000x1_S10000x32 (ix2 p q)
      + broadcastTo S10000x32 x3 broadcasts_S1x32_S10000x32 (ix2 p q) = _
  rw [hd, hb]

/-- The printed index maps over the grid: the three row-blocked inputs' and the output's row block is the point itself,
    every other block coordinate is zero. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the combine of the four arrays as the region finds them. -/
theorem flushed_eq (c : Dev nD) (t : Fin cfg3.N) :
    (dat3 V c).flushed 4 t
      = ((cfg3.win 4).blk t).view.read (Elt Ideal) (combine (V c main_v57) (V c main_v44) (V c main_v27) (V c main_v58)) := by
  show (cfg3.win 4).cut (grid3.coords t) ((dat3 V c).after 4 t) = _
  rw [after3_4]
  unfold out3_4
  rw [View.canon_unit_zero origin_zero]
  simp only [View.ld_unit_zero (S := S10000x32) origin_zero, View.ld_unit_zero (S := S10000x1) origin_zero, View.ld_unit_zero (S := S1x32) origin_zero]
  obtain ⟨e0, e1, e2, e3, e4, e5, e6, e7, e8, e9⟩ := index_facts t
  funext j
  obtain ⟨p, q, rfl⟩ : ∃ (p : Fin 10000) (q : Fin 32), j = ix2 p q := ⟨j 0, j 1, eq_ix2 j⟩
  refine (body_at _ _ _ _ p q).trans ?_
  let A : S100000x32.Idx → EReal := V c main_v57
  let H : S100000x32.Idx → EReal := V c main_v44
  let D : S100000x1.Idx → EReal := V c main_v27
  let B : S1x32.Idx → EReal := V c main_v58
  show A (((cfg3.win 0).blk t).view.emb (ix2 p q)) + H (((cfg3.win 1).blk t).view.emb (ix2 p q)) * D (((cfg3.win 2).blk t).view.emb (ix2 p (0 : Fin 1)))
      + B (((cfg3.win 3).blk t).view.emb (ix2 (0 : Fin 1) q))
    = A (((cfg3.win 4).blk t).view.emb (ix2 p q)) + H (((cfg3.win 4).blk t).view.emb (ix2 p q)) * D (ix2 ((((cfg3.win 4).blk t).view.emb (ix2 p q)) 0) (0 : Fin 1))
      + B (ix2 (0 : Fin 1) ((((cfg3.win 4).blk t).view.emb (ix2 p q)) 1))
  have h0 : ((cfg3.win 0).blk t).view.emb (ix2 p q) = ((cfg3.win 4).blk t).view.emb (ix2 p q) := by
    funext a; apply Fin.ext
    match a with
    | ⟨0, _⟩ => show win3_0.index t (0 : Fin 2) * 10000 + 1 * p.val = win3_4.index t (0 : Fin 2) * 10000 + 1 * p.val; omega
    | ⟨1, _⟩ => show win3_0.index t (1 : Fin 2) * 32 + 1 * q.val = win3_4.index t (1 : Fin 2) * 32 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 10000 + 1 * p.val = win3_4.index t (0 : Fin 2) * 10000 + 1 * p.val; omega
    | ⟨1, _⟩ => show win3_1.index t (1 : Fin 2) * 32 + 1 * q.val = win3_4.index t (1 : Fin 2) * 32 + 1 * q.val; omega
  have h2 : ((cfg3.win 2).blk t).view.emb (ix2 p (0 : Fin 1)) = ix2 ((((cfg3.win 4).blk t).view.emb (ix2 p q)) 0) (0 : Fin 1) := by
    funext a; apply Fin.ext
    match a with
    | ⟨0, _⟩ => show win3_2.index t (0 : Fin 2) * 10000 + 1 * p.val = win3_4.index t (0 : Fin 2) * 10000 + 1 * p.val; omega
    | ⟨1, _⟩ => show win3_2.index t (1 : Fin 2) * 1 + 1 * 0 = 0; omega
  have h3 : ((cfg3.win 3).blk t).view.emb (ix2 (0 : Fin 1) q) = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 32 + 1 * q.val = win3_4.index t (1 : Fin 2) * 32 + 1 * q.val; omega
  rw [h0, h1, h2, h3] <;> rfl

/-- An index of the output array is in point `t`'s block iff each coordinate is in the block's range on its axis. -/
theorem mem_blk (t : Fin cfg3.N) (i : S100000x32.Idx) :
    i ∈ ((cfg3.win 4).blk t).view.set ↔ ∀ a : Fin 2, win3_4.index t a * S10000x32.size a ≤ (i a).val ∧ (i a).val < win3_4.index t a * S10000x32.size a + S10000x32.size a := by
  show i ∈ ((View.whole main_v59).slice (win3_4.rect t)).set ↔ _
  rw [View.set_slice_whole, Rect.mem_set_unit]
  exact Iff.rfl

/-- Every index of the output array is in some point's block: row `r` in block `r / 10000`. -/
theorem cover (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  have hN : grid3.N = 10 := N_3
  let t : Fin cfg3.N := ⟨(i 0).val / 10000, by show (i 0).val / 10000 < grid3.N; rw [hN]; omega⟩
  obtain ⟨e0, e1, e2, e3, e4, e5, e6, e7, e8, e9⟩ := index_facts t
  have ht : t.val = (i 0).val / 10000 := rfl
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 32 ≤ (i 1).val ∧ (i 1).val < win3_4.index t (1 : Fin 2) * 32 + 32; omega

/-- The output array after the region: the combine of the four arrays as the region finds them. -/
theorem array_eq (c : Dev nD) :
    (dat3 V c).arrAt 4 cfg3.N = combine (V c main_v57) (V c main_v44) (V c main_v27) (V c main_v58) :=
  (dat3 V c).arrAt_eq_of_cover 4 _ (fun t _ => flushed_eq V c t) cover

end Cert.KernelIdeal.Combine3

end
-- ==== Proof.LibPlainDot.lean ====
/-
  A plain two-axis matrix product on the host, read at an index given by coordinates: for dimension numbers that
  contract the left operand's columns with the right operand's rows, an `[m, k] · [k, n]` `dot_general` over the
  extended reals reads, at `(r, c)`, the sum over `f` of left `(r, f)` times right `(f, c)` — the same sum a
  matrix product into a zero accumulator reads there, whatever the order the host adds in.
-/
import Idealize.ShloMosaic.Lib.ValueIdx
import Idealize.ShloMosaic.PureOps.Ideal.Laws

noncomputable section

namespace Cert.PlainDot

open Idealize.ShloMosaic Idealize.ShloMosaic.ValueIdx

/-- For dimension numbers that contract the left operand's columns with the right operand's rows (`hl0` … `hr1`: the
    operand indices at an output index and a contraction position, read off the numbers), an `[m, k] · [k, n]`
    host product reads, at `(r, c)`, the sum over `f` of left `(r, f)` times right `(f, c)`. -/
theorem dotGeneral_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (sched : HostSchedule)
    (lhs : FVec Ideal ⟨2, ![m, k]⟩ φ₁) (rhs : FVec Ideal ⟨2, ![k, n]⟩ φ₂) (r : Fin m) (c : Fin n) :
    FloatOps.dotGeneral D prec sched lhs rhs (ix2 r c) = ∑ f : Fin k, lhs (ix2 r f) * rhs (ix2 f c) := by
  refine (Ideal.dotGeneral_apply D prec sched lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainDot

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.LibBroadcastInDim.lean ====
/-
  Host broadcasts of a per-row and of a per-lane quantity, read at an index. A vector `[a]` of per-row numbers is
  first given a unit lane axis (`[a, 1]`) and then repeated along the lanes (`[a, c]`): entry `(r, q)` of the result is
  entry `r` of the vector. A vector `[c]` of per-lane numbers is first given a unit row axis (`[1, c]`) and then repeated
  along the rows: entry `(r, q)` of the result is entry `q` of the vector. A scalar broadcast to any shape reads the
  scalar everywhere.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A per-row vector `[a]` broadcast to `[a, 1]` and then to `[a, c]` reads, at `(r, q)`, the vector's entry `r`. -/
theorem perRow_apply {a c : ℕ} (d : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, c]⟩ ![0, 1]) (r : Fin a) (q : Fin c) :
    broadcastInDim ⟨2, ![a, c]⟩ ![0, 1] h2 (broadcastInDim ⟨2, ![a, 1]⟩ ![0] h1 d) (ix2 r q) = d (ix1 r) := by
  refine (broadcastInDim_apply _ h2 _ (ix2 r q) (ix2 r (0 : Fin 1)) fun ax => ?_).trans
    (broadcastInDim_apply _ h1 d (ix2 r (0 : Fin 1)) (ix1 r) fun ax => ?_)
  · match ax with
    | ⟨0, _⟩ =>
      show r.val = if a = 1 then 0 else r.val
      split
      · have := r.isLt; omega
      · rfl
    | ⟨1, _⟩ => show 0 = if (1 : ℕ) = 1 then 0 else q.val; rw [if_pos rfl]
  · match ax with
    | ⟨0, _⟩ =>
      show r.val = if a = 1 then 0 else r.val
      split
      · have := r.isLt; omega
      · rfl

/-- A per-lane vector `[c]` broadcast to `[1, c]` and then to `[a, c]` reads, at `(r, q)`, the vector's entry `q`. -/
theorem perLane_apply {a c : ℕ} (b : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (r : Fin a) (q : Fin c) :
    broadcastInDim ⟨2, ![a, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => show 0 = if (1 : ℕ) = 1 then 0 else r.val; rw [if_pos rfl]
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- A scalar broadcast to any shape reads the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply _ h x i ix0 fun ax => ax.elim0

end Cert.Lib.BroadcastInDim

end
-- ==== Proof.Bridge.lean ====
/-
  The reference's stages, one layer at a time, against the layer's dense parts as whole-array functions.

  The host's `dot_general` that contracts the left operand's columns with the right operand's rows is the matrix product
  `rowsTimes`. The reference's combine — aggregated messages plus the transformed rows times the squared inverse-root
  degrees (broadcast from a vector to a column and along the lanes) plus the bias (broadcast from a vector to a row and
  along the rows), then for the first layer the maximum with a zero splat — is `combine` / `combineRelu` of the same four
  arrays with the degrees kept as a column and the bias as a row: a cast of a vector to a column or to a row moves no
  element. The second layer's recomputed degrees are the first layer's, term for term.
-/
import proofs.«142744_j67044439490828_1_alg».proof.Proof.Gen.ReferenceIdeal.Read
import proofs.«142744_j67044439490828_1_alg».proof.Proof.Layer
import proofs.«142744_j67044439490828_1_alg».proof.Proof.LibPlainDot
import proofs.«142744_j67044439490828_1_alg».proof.Proof.LibColumnCast
import proofs.«142744_j67044439490828_1_alg».proof.Proof.LibBroadcastInDim
import Idealize.ShloMosaic.Lib.ValueLayout

noncomputable section

namespace Cert.ReferenceIdeal.Bridge

open Idealize.ShloMosaic Idealize.ShloMosaic.ValueIdx
open Cert.ReferenceIdeal Cert.ReferenceIdeal.Gen Cert.ReferenceIdeal.Read Cert.Layer

/-! ## The two matrix products -/

/-- The first layer's linear transform is the matrix product of the features with the first weights. -/
theorem transform1_eq (x0 : FVec Ideal S100000x128 .f32) (x2 : FVec Ideal S128x64 .f32) :
    rowsTimes x0 x2 = val_main_v4 (F := Ideal) x0 x2 := by
  funext i
  obtain ⟨r, q, rfl⟩ : ∃ (r : Fin 100000) (q : Fin 64), i = ix2 r q := ⟨i 0, i 1, eq_ix2 i⟩
  rw [rowsTimes_ix2]
  unfold val_main_v4
  simp only [Host.dotGeneral]
  exact (Cert.PlainDot.dotGeneral_ix2_apply dot_S100000x128_S128x64_S100000x64_1_0_0_1_n_n rfl rfl
    lhs_main_v4_0 lhs_main_v4_1 rhs_main_v4_0 rhs_main_v4_1 none _ x0 x2 r q).symm

/-- The second layer's linear transform is the matrix product of any hidden array with the second weights. -/
theorem transform2_eq (h : FVec Ideal S100000x64 .f32) (x4 : FVec Ideal S64x32 .f32) :
    rowsTimes h x4 = Host.dotGeneral (F := Ideal) dot_S100000x64_S64x32_S100000x32_1_0_0_1_n_n none h x4 := by
  funext i
  obtain ⟨r, q, rfl⟩ : ∃ (r : Fin 100000) (q : Fin 32), i = ix2 r q := ⟨i 0, i 1, eq_ix2 i⟩
  rw [rowsTimes_ix2]
  simp only [Host.dotGeneral]
  exact (Cert.PlainDot.dotGeneral_ix2_apply dot_S100000x64_S64x32_S100000x32_1_0_0_1_n_n rfl rfl
    lhs_main_v53_0 lhs_main_v53_1 rhs_main_v53_0 rhs_main_v53_1 none _ h x4 r q).symm

/-! ## The two combines -/

/-- The first layer's combine on the host, of any four arrays. -/
def hostCombine64 (agg h : FVec Ideal S100000x64 .f32) (d : FVec Ideal S100000 .f32) (b : FVec Ideal S64 .f32) : FVec Ideal S100000x64 .f32 :=
  maximumf (F := Ideal) (addf (addf agg (mulf h (broadcastInDim S100000x64 ![0, 1] bcast_S100000x1_S100000x64_0_1
      (broadcastInDim S100000x1 ![0] bcast_S100000_S100000x1_0 d))))
    (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The second layer's combine on the host, of any four arrays. -/
def hostCombine32 (agg h : FVec Ideal S100000x32 .f32) (d : FVec Ideal S100000 .f32) (b : FVec Ideal S32 .f32) : FVec Ideal S100000x32 .f32 :=
  addf (F := Ideal) (addf agg (mulf h (broadcastInDim S100000x32 ![0, 1] bcast_S100000x1_S100000x32_0_1
      (broadcastInDim S100000x1 ![0] bcast_S100000_S100000x1_0 d))))
    (broadcastInDim S100000x32 ![0, 1] bcast_S1x32_S100000x32_0_1 (broadcastInDim S1x32 ![1] bcast_S32_S1x32_1 b))

theorem hostCombine64_eq (agg h : FVec Ideal S100000x64 .f32) (d : FVec Ideal S100000 .f32) (b : FVec Ideal S64 .f32)
    (hc : S100000.ShapeCasts S100000x1) (hb : S64.ShapeCasts S1x64) :
    combineRelu agg h (shapeCast S100000x1 d hc) (shapeCast S1x64 b hb) = hostCombine64 agg h d b := by
  funext i
  obtain ⟨r, q, rfl⟩ : ∃ (r : Fin 100000) (q : Fin 64), i = ix2 r q := ⟨i 0, i 1, eq_ix2 i⟩
  rw [combineRelu_ix2, Cert.Lib.ColumnCast.shapeCast_a_a1_apply d hc r (0 : Fin 1), shapeCast_a_1a_apply b hb (0 : Fin 1) q]
  have e1 := Cert.Lib.BroadcastInDim.perRow_apply d bcast_S100000_S100000x1_0 bcast_S100000x1_S100000x64_0_1 r q
  have e2 := Cert.Lib.BroadcastInDim.perLane_apply b bcast_S64_S1x64_1 bcast_S1x64_S100000x64_0_1 r q
  have e3 := Cert.Lib.BroadcastInDim.splat_apply (constant (F := Ideal) S_ .f32 0x00000000#32) bcast_S_S100000x64 (ix2 r q)
  show _ = max (agg (ix2 r q) + h (ix2 r q) * broadcastInDim S100000x64 ![0, 1] bcast_S100000x1_S100000x64_0_1
      (broadcastInDim S100000x1 ![0] bcast_S100000_S100000x1_0 d) (ix2 r q)
    + broadcastInDim S100000x64 ![0, 1] bcast_S1x64_S100000x64_0_1 (broadcastInDim S1x64 ![1] bcast_S64_S1x64_1 b) (ix2 r q))
    (broadcastInDim S100000x64 ![] bcast_S_S100000x64 (constant (F := Ideal) S_ .f32 0x00000000#32) (ix2 r q))
  rw [e1, e2, e3] <;> rfl

theorem hostCombine32_eq (agg h : FVec Ideal S100000x32 .f32) (d : FVec Ideal S100000 .f32) (b : FVec Ideal S32 .f32)
    (hc : S100000.ShapeCasts S100000x1) (hb : S32.ShapeCasts S1x32) :
    combine agg h (shapeCast S100000x1 d hc) (shapeCast S1x32 b hb) = hostCombine32 agg h d b := by
  funext i
  obtain ⟨r, q, rfl⟩ : ∃ (r : Fin 100000) (q : Fin 32), i = ix2 r q := ⟨i 0, i 1, eq_ix2 i⟩
  rw [combine_ix2, Cert.Lib.ColumnCast.shapeCast_a_a1_apply d hc r (0 : Fin 1), shapeCast_a_1a_apply b hb (0 : Fin 1) q]
  have e1 := Cert.Lib.BroadcastInDim.perRow_apply d bcast_S100000_S100000x1_0 bcast_S100000x1_S100000x32_0_1 r q
  have e2 := Cert.Lib.BroadcastInDim.perLane_apply b bcast_S32_S1x32_1 bcast_S1x32_S100000x32_0_1 r q
  show _ = agg (ix2 r q) + h (ix2 r q) * broadcastInDim S100000x32 ![0, 1] bcast_S100000x1_S100000x32_0_1
      (broadcastInDim S100000x1 ![0] bcast_S100000_S100000x1_0 d) (ix2 r q)
    + broadcastInDim S100000x32 ![0, 1] bcast_S1x32_S100000x32_0_1 (broadcastInDim S1x32 ![1] bcast_S32_S1x32_1 b) (ix2 r q)
  rw [e1, e2] <;> rfl

/-! ## The reference's stages -/

variable (x0 : FVec Ideal S100000x128 .f32) (e : (⟨S2x1600000, .i32⟩ : BufTy).Contents (Elt Ideal)) (x2 : FVec Ideal S128x64 .f32)
  (x3 : FVec Ideal S64 .f32) (x4 : FVec Ideal S64x32 .f32) (x5 : FVec Ideal S32 .f32)

/-- The hidden activations: the first layer's combine of the aggregated messages, the transformed rows, the squared
    inverse-root degrees as a column and the first bias as a row. -/
theorem hidden_eq (hc : S100000.ShapeCasts S100000x1) (hb : S64.ShapeCasts S1x64) :
    combineRelu (val_main_v39 (F := Ideal) x0 e x2) (val_main_v4 (F := Ideal) x0 x2)
      (shapeCast S100000x1 (val_main_v40 (F := Ideal) e) hc) (shapeCast S1x64 x3 hb)
      = val_main_v48 (F := Ideal) x0 e x2 x3 :=
  (hostCombine64_eq _ _ _ _ hc hb).trans rfl

/-- The second layer's transformed rows. -/
theorem transformed2_eq : rowsTimes (val_main_v48 (F := Ideal) x0 e x2 x3) x4 = val_main_v53 (F := Ideal) x0 e x2 x3 x4 :=
  (transform2_eq _ x4).trans rfl

/-- The second layer recomputes the squared inverse-root degrees from the same edge list: the same term. -/
theorem degrees_again : val_main_v89 (F := Ideal) e = val_main_v40 (F := Ideal) e := rfl

/-- The result: the second layer's combine. -/
theorem result_eq (hc : S100000.ShapeCasts S100000x1) (hb : S32.ShapeCasts S1x32) :
    combine (val_main_v88 (F := Ideal) x0 e x2 x3 x4) (val_main_v53 (F := Ideal) x0 e x2 x3 x4)
      (shapeCast S100000x1 (val_main_v40 (F := Ideal) e) hc) (shapeCast S1x32 x5 hb)
      = val_main_v96 (F := Ideal) x0 e x2 x3 x4 x5 := by
  rw [← degrees_again]
  exact (hostCombine32_eq _ _ _ _ hc hb).trans rfl

end Cert.ReferenceIdeal.Bridge

end
-- ==== Proof.Stages.lean ====
/-
  The idealized kernel's buffers at each boundary between its seven segments, walked forward from the launch memory.
  The host operations before the first region compute, from the edge list alone, the source and target node of every
  edge, the product of the two inverse-root degrees of every edge, and the column of squared inverse-root degrees; no
  later segment writes them. Each matrix-product region leaves its output array at the product of its two operands,
  each combine region at the combine of its four; the host operations between them gather rows by source node, scale
  them per edge and add them up by target node. Every buffer a segment does not write is carried through it unchanged.
  The host operations are the reference's own, so each stage is named by the reference's stage of the same value.
-/
import proofs.«142744_j67044439490828_1_alg».proof.Proof.Gen.KernelIdeal.Frame
import proofs.«142744_j67044439490828_1_alg».proof.Proof.Gen.ReferenceIdeal.Read
import proofs.«142744_j67044439490828_1_alg».proof.Proof.Dense0
import proofs.«142744_j67044439490828_1_alg».proof.Proof.Dense2
import proofs.«142744_j67044439490828_1_alg».proof.Proof.Combine1
import proofs.«142744_j67044439490828_1_alg».proof.Proof.Combine3
import proofs.«142744_j67044439490828_1_alg».proof.Proof.Bridge
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.ReferenceIdeal.Read Cert.Layer

/-- The squared inverse-root degrees, kept as a column. -/
abbrev selfColumn (e : (⟨S2x1600000, .i32⟩ : BufTy).Contents (Elt Ideal)) : S100000x1.Idx → EReal :=
  shapeCast S100000x1 (val_main_v40 (F := Ideal) e) shapeCasts_S100000_S100000x1

/-- A bias vector kept as a row. -/
abbrev biasRow64 (b : S64.Idx → EReal) : S1x64.Idx → EReal := shapeCast S1x64 b shapeCasts_S64_S1x64
abbrev biasRow32 (b : S32.Idx → EReal) : S1x32.Idx → EReal := shapeCast S1x32 b shapeCasts_S32_S1x32

variable (m : (ℓ : Loc nD τ sig) → Buf (Elt Ideal) ℓ) (ρ : Dev nD → PrngReg)

/-! ## After the first host operations -/

theorem at1_main_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

theorem at1_main_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem at1_main_v25 (c : Dev nD) : W1 m ρ c (Proc.devRef .tc main_v25) = val_main_v26 (F := Ideal) (m ((c : Thread nD τ).loc main_arg1)) := by
  show StableHlo.after hostOps0 (W0 m ρ c) (Proc.devRef .tc main_v25) = _
  after_results_simp
  rfl

theorem at1_main_v27 (c : Dev nD) : W1 m ρ c (Proc.devRef .tc main_v27) = selfColumn (m ((c : Thread nD τ).loc main_arg1)) := by
  show StableHlo.after hostOps0 (W0 m ρ c) (Proc.devRef .tc main_v27) = _
  after_results_simp
  rfl

theorem at1_main_arg0 (c : Dev nD) : W1 m ρ c (Proc.devRef .tc main_arg0) = (m ((c : Thread nD τ).loc main_arg0)) := by
  show StableHlo.after hostOps0 (W0 m ρ c) (Proc.devRef .tc main_arg0) = _
  after_results_simp

theorem at1_main_arg2 (c : Dev nD) : W1 m ρ c (Proc.devRef .tc main_arg2) = (m ((c : Thread nD τ).loc main_arg2)) := by
  show StableHlo.after hostOps0 (W0 m ρ c) (Proc.devRef .tc main_arg2) = _
  after_results_simp

theorem at1_main_arg3 (c : Dev nD) : W1 m ρ c (Proc.devRef .tc main_arg3) = (m ((c : Thread nD τ).loc main_arg3)) := by
  show StableHlo.after hostOps0 (W0 m ρ c) (Proc.devRef .tc main_arg3) = _
  after_results_simp

theorem at1_main_arg4 (c : Dev nD) : W1 m ρ c (Proc.devRef .tc main_arg4) = (m ((c : Thread nD τ).loc main_arg4)) := by
  show StableHlo.after hostOps0 (W0 m ρ c) (Proc.devRef .tc main_arg4) = _
  after_results_simp

theorem at1_main_arg5 (c : Dev nD) : W1 m ρ c (Proc.devRef .tc main_arg5) = (m ((c : Thread nD τ).loc main_arg5)) := by
  show StableHlo.after hostOps0 (W0 m ρ c) (Proc.devRef .tc main_arg5) = _
  after_results_simp

/-! ## After the first matrix product -/

theorem at2_main_v28 (c : Dev nD) : W2 m ρ c (Proc.devRef .tc main_v28) = rowsTimes (m ((c : Thread nD τ).loc main_arg0)) (m ((c : Thread nD τ).loc main_arg2)) :=
  (W2_arr m ρ c 2).trans ((Cert.KernelIdeal.Dense0.array_eq (V1 m ρ) c).trans
    (congrArg₂ rowsTimes (at1_main_arg0 m ρ c) (at1_main_arg2 m ρ c)))

theorem at2_main_v1 (c : Dev nD) : W2 m ρ c (Proc.devRef .tc main_v1) = val_main_v1 (F := Ideal) (m ((c : Thread nD τ).loc main_arg1)) :=
  (W2_of_ne m ρ c main_v1 (by decide)).trans (at1_main_v1 m ρ c)

theorem at2_main_v3 (c : Dev nD) : W2 m ρ c (Proc.devRef .tc main_v3) = val_main_v3 (F := Ideal) (m ((c : Thread nD τ).loc main_arg1)) :=
  (W2_of_ne m ρ c main_v3 (by decide)).trans (at1_main_v3 m ρ c)

theorem at2_main_v25 (c : Dev nD) : W2 m ρ c (Proc.devRef .tc main_v25) = val_main_v26 (F := Ideal) (m ((c : Thread nD τ).loc main_arg1)) :=
  (W2_of_ne m ρ c main_v25 (by decide)).trans (at1_main_v25 m ρ c)

theorem at2_main_v27 (c : Dev nD) : W2 m ρ c (Proc.devRef .tc main_v27) = selfColumn (m ((c : Thread nD τ).loc main_arg1)) :=
  (W2_of_ne m ρ c main_v27 (by decide)).trans (at1_main_v27 m ρ c)

theorem at2_main_arg3 (c : Dev nD) : W2 m ρ c (Proc.devRef .tc main_arg3) = (m ((c : Thread nD τ).loc main_arg3)) :=
  (W2_of_ne m ρ c main_arg3 (by decide)).trans (at1_main_arg3 m ρ c)

theorem at2_main_arg4 (c : Dev nD) : W2 m ρ c (Proc.devRef .tc main_arg4) = (m ((c : Thread nD τ).loc main_arg4)) :=
  (W2_of_ne m ρ c main_arg4 (by decide)).trans (at1_main_arg4 m ρ c)

theorem at2_main_arg5 (c : Dev nD) : W2 m ρ c (Proc.devRef .tc main_arg5) = (m ((c : Thread nD τ).loc main_arg5)) :=
  (W2_of_ne m ρ c main_arg5 (by decide)).trans (at1_main_arg5 m ρ c)

/-! ## After the first aggregation -/

theorem at3_main_v41 (c : Dev nD) : W3 m ρ c (Proc.devRef .tc main_v41) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  after_results_simp
  simp only [at2_main_v28 m ρ c, at2_main_v1 m ρ c, at2_main_v3 m ρ c, at2_main_v25 m ρ c, Cert.ReferenceIdeal.Bridge.transform1_eq]
  rfl

theorem at3_main_v42 (c : Dev nD) : W3 m ρ c (Proc.devRef .tc main_v42) = biasRow64 (m ((c : Thread nD τ).loc main_arg3)) := by
  show StableHlo.after hostOps1 (W2 m ρ c) (Proc.devRef .tc main_v42) = _
  after_results_simp
  rw [at2_main_arg3 m ρ c]
  rfl

theorem at3_main_v28 (c : Dev nD) : W3 m ρ c (Proc.devRef .tc main_v28) = rowsTimes (m ((c : Thread nD τ).loc main_arg0)) (m ((c : Thread nD τ).loc main_arg2)) := by
  show StableHlo.after hostOps1 (W2 m ρ c) (Proc.devRef .tc main_v28) = _
  after_results_simp
  exact at2_main_v28 m ρ c

theorem at3_main_v27 (c : Dev nD) : W3 m ρ c (Proc.devRef .tc main_v27) = selfColumn (m ((c : Thread nD τ).loc main_arg1)) := by
  show StableHlo.after hostOps1 (W2 m ρ c) (Proc.devRef .tc main_v27) = _
  after_results_simp
  exact at2_main_v27 m ρ c

theorem at3_main_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  after_results_simp
  exact at2_main_v1 m ρ c

theorem at3_main_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact at2_main_v3 m ρ c

theorem at3_main_v25 (c : Dev nD) : W3 m ρ c (Proc.devRef .tc main_v25) = val_main_v26 (F := Ideal) (m ((c : Thread nD τ).loc main_arg1)) := by
  show StableHlo.after hostOps1 (W2 m ρ c) (Proc.devRef .tc main_v25) = _
  after_results_simp
  exact at2_main_v25 m ρ c

theorem at3_main_arg4 (c : Dev nD) : W3 m ρ c (Proc.devRef .tc main_arg4) = (m ((c : Thread nD τ).loc main_arg4)) := by
  show StableHlo.after hostOps1 (W2 m ρ c) (Proc.devRef .tc main_arg4) = _
  after_results_simp
  exact at2_main_arg4 m ρ c

theorem at3_main_arg5 (c : Dev nD) : W3 m ρ c (Proc.devRef .tc main_arg5) = (m ((c : Thread nD τ).loc main_arg5)) := by
  show StableHlo.after hostOps1 (W2 m ρ c) (Proc.devRef .tc main_arg5) = _
  after_results_simp
  exact at2_main_arg5 m ρ c

/-! ## After the first combine -/

theorem at4_main_v43 (c : Dev nD) : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) :=
  (W4_arr m ρ c 4).trans ((Cert.KernelIdeal.Combine1.array_eq (V3 m ρ) c).trans
    ((show combineRelu (V3 m ρ c main_v41) (V3 m ρ c main_v28) (V3 m ρ c main_v27) (V3 m ρ c main_v42) = combineRelu (val_main_v39 (F := Ideal) (m ((c : Thread nD τ).loc main_arg0)) (m ((c : Thread nD τ).loc main_arg1)) (m ((c : Thread nD τ).loc main_arg2))) (val_main_v4 (F := Ideal) (m ((c : Thread nD τ).loc main_arg0)) (m ((c : Thread nD τ).loc main_arg2))) (selfColumn (m ((c : Thread nD τ).loc main_arg1))) (biasRow64 (m ((c : Thread nD τ).loc main_arg3))) by
      rw [show V3 m ρ c main_v41 = _ from at3_main_v41 m ρ c, show V3 m ρ c main_v28 = _ from at3_main_v28 m ρ c, show V3 m ρ c main_v27 = _ from at3_main_v27 m ρ c, show V3 m ρ c main_v42 = _ from at3_main_v42 m ρ c, Cert.ReferenceIdeal.Bridge.transform1_eq]).trans
      (Cert.ReferenceIdeal.Bridge.hidden_eq _ _ _ _ _ _)))

theorem at4_main_v27 (c : Dev nD) : W4 m ρ c (Proc.devRef .tc main_v27) = selfColumn (m ((c : Thread nD τ).loc main_arg1)) :=
  (W4_arr m ρ c 2).trans ((((dat1 (V3 m ρ) c).arrAt_in 2 rfl _).trans (A_eq1 (V3 m ρ) c 2)).trans (at3_main_v27 m ρ c))

theorem at4_main_v1 (c : Dev nD) : W4 m ρ c (Proc.devRef .tc main_v1) = val_main_v1 (F := Ideal) (m ((c : Thread nD τ).loc main_arg1)) :=
  (W4_of_ne m ρ c main_v1 (by decide)).trans (at3_main_v1 m ρ c)

theorem at4_main_v3 (c : Dev nD) : W4 m ρ c (Proc.devRef .tc main_v3) = val_main_v3 (F := Ideal) (m ((c : Thread nD τ).loc main_arg1)) :=
  (W4_of_ne m ρ c main_v3 (by decide)).trans (at3_main_v3 m ρ c)

theorem at4_main_v25 (c : Dev nD) : W4 m ρ c (Proc.devRef .tc main_v25) = val_main_v26 (F := Ideal) (m ((c : Thread nD τ).loc main_arg1)) :=
  (W4_of_ne m ρ c main_v25 (by decide)).trans (at3_main_v25 m ρ c)

theorem at4_main_arg4 (c : Dev nD) : W4 m ρ c (Proc.devRef .tc main_arg4) = (m ((c : Thread nD τ).loc main_arg4)) :=
  (W4_of_ne m ρ c main_arg4 (by decide)).trans (at3_main_arg4 m ρ c)

theorem at4_main_arg5 (c : Dev nD) : W4 m ρ c (Proc.devRef .tc main_arg5) = (m ((c : Thread nD τ).loc main_arg5)) :=
  (W4_of_ne m ρ c main_arg5 (by decide)).trans (at3_main_arg5 m ρ c)

/-! ## After the second matrix product -/

theorem at5_main_v44 (c : Dev nD) : W5 m ρ c (Proc.devRef .tc main_v44) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((Cert.KernelIdeal.Dense2.array_eq (V4 m ρ) c).trans
    ((congrArg₂ rowsTimes (at4_main_v43 m ρ c) (at4_main_arg4 m ρ c)).trans
      (Cert.ReferenceIdeal.Bridge.transformed2_eq _ _ _ _ _)))

theorem at5_main_v1 (c : Dev nD) : W5 m ρ c (Proc.devRef .tc main_v1) = val_main_v1 (F := Ideal) (m ((c : Thread nD τ).loc main_arg1)) :=
  (W5_of_ne m ρ c main_v1 (by decide)).trans (at4_main_v1 m ρ c)

theorem at5_main_v3 (c : Dev nD) : W5 m ρ c (Proc.devRef .tc main_v3) = val_main_v3 (F := Ideal) (m ((c : Thread nD τ).loc main_arg1)) :=
  (W5_of_ne m ρ c main_v3 (by decide)).trans (at4_main_v3 m ρ c)

theorem at5_main_v25 (c : Dev nD) : W5 m ρ c (Proc.devRef .tc main_v25) = val_main_v26 (F := Ideal) (m ((c : Thread nD τ).loc main_arg1)) :=
  (W5_of_ne m ρ c main_v25 (by decide)).trans (at4_main_v25 m ρ c)

theorem at5_main_v27 (c : Dev nD) : W5 m ρ c (Proc.devRef .tc main_v27) = selfColumn (m ((c : Thread nD τ).loc main_arg1)) :=
  (W5_of_ne m ρ c main_v27 (by decide)).trans (at4_main_v27 m ρ c)

theorem at5_main_arg5 (c : Dev nD) : W5 m ρ c (Proc.devRef .tc main_arg5) = (m ((c : Thread nD τ).loc main_arg5)) :=
  (W5_of_ne m ρ c main_arg5 (by decide)).trans (at4_main_arg5 m ρ c)

/-! ## After the second aggregation -/

theorem at6_main_v57 (c : Dev nD) : W6 m ρ c (Proc.devRef .tc main_v57) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  after_results_simp
  simp only [at5_main_v44 m ρ c, at5_main_v1 m ρ c, at5_main_v3 m ρ c, at5_main_v25 m ρ c]
  rfl

theorem at6_main_v58 (c : Dev nD) : W6 m ρ c (Proc.devRef .tc main_v58) = biasRow32 (m ((c : Thread nD τ).loc main_arg5)) := by
  show StableHlo.after hostOps3 (W5 m ρ c) (Proc.devRef .tc main_v58) = _
  after_results_simp
  rw [at5_main_arg5 m ρ c]
  rfl

theorem at6_main_v44 (c : Dev nD) : W6 m ρ c (Proc.devRef .tc main_v44) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v44) = _
  after_results_simp
  exact at5_main_v44 m ρ c

theorem at6_main_v27 (c : Dev nD) : W6 m ρ c (Proc.devRef .tc main_v27) = selfColumn (m ((c : Thread nD τ).loc main_arg1)) := by
  show StableHlo.after hostOps3 (W5 m ρ c) (Proc.devRef .tc main_v27) = _
  after_results_simp
  exact at5_main_v27 m ρ c

/-! ## After the second combine: the result -/

theorem result (c : Dev nD) : W7 m ρ c (Proc.devRef .tc main_v59)
    = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 4).trans ((Cert.KernelIdeal.Combine3.array_eq (V6 m ρ) c).trans
    ((show combine (V6 m ρ c main_v57) (V6 m ρ c main_v44) (V6 m ρ c main_v27) (V6 m ρ c main_v58) = combine (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (selfColumn (m ((c : Thread nD τ).loc main_arg1))) (biasRow32 (m ((c : Thread nD τ).loc main_arg5))) by
      rw [show V6 m ρ c main_v57 = _ from at6_main_v57 m ρ c, show V6 m ρ c main_v44 = _ from at6_main_v44 m ρ c, show V6 m ρ c main_v27 = _ from at6_main_v27 m ρ c, show V6 m ρ c main_v58 = _ from at6_main_v58 m ρ c]).trans
      (Cert.ReferenceIdeal.Bridge.result_eq _ _ _ _ _ _ _ _)))

end Cert.KernelIdeal.Stages

end
-- ==== Proof.lean ====
/-
  A two-layer graph convolution over 100000 nodes and 1600000 edges: each layer multiplies the node features by a
  weight matrix, gathers the transformed rows by source node, scales each by the product of the inverse-root degrees of
  the edge's two ends, adds them up by target node, and adds the node's own row scaled by its squared inverse-root degree
  and a bias; the first layer ends with the maximum with zero.

  The kernel runs the two matrix products and the two combines as row-blocked regions and everything else as the same
  host operations the reference runs. On the extended reals a row-blocked matrix product into a zero accumulator is the
  host's `dot_general` (a sum over the contracted axis, entry by entry; narrowing the operands is the identity), and a
  row-blocked combine with the degrees held as a column and the bias as a row is the host's combine with both broadcast
  from vectors. So the two programs compute one function of the six arguments, stage by stage; no law of arithmetic is
  used beyond reading each side's sums and products entry by entry, and the precondition is never opened.

  The kernel's idealization is its own text read on the extended reals, so the preservation conjunct is trivially true.
-/
import proofs.«142744_j67044439490828_1_alg».proof.Defs
import proofs.«142744_j67044439490828_1_alg».proof.Proof.Gen.Kernel
import proofs.«142744_j67044439490828_1_alg».proof.Proof.Gen.Kernel.Skeleton
import proofs.«142744_j67044439490828_1_alg».proof.Proof.Gen.Kernel.Launch
import proofs.«142744_j67044439490828_1_alg».proof.Proof.Gen.Kernel.Points
import proofs.«142744_j67044439490828_1_alg».proof.Proof.Gen.Kernel.Frame
import proofs.«142744_j67044439490828_1_alg».proof.Proof.Gen.KernelIdeal
import proofs.«142744_j67044439490828_1_alg».proof.Proof.Gen.KernelIdeal.Skeleton
import proofs.«142744_j67044439490828_1_alg».proof.Proof.Gen.KernelIdeal.Launch
import proofs.«142744_j67044439490828_1_alg».proof.Proof.Gen.KernelIdeal.Points
import proofs.«142744_j67044439490828_1_alg».proof.Proof.Gen.KernelIdeal.Frame
import proofs.«142744_j67044439490828_1_alg».proof.Proof.Gen.ReferenceIdeal
import proofs.«142744_j67044439490828_1_alg».proof.Proof.Gen.Pre_finite_inputs
import proofs.«142744_j67044439490828_1_alg».proof.Proof.Gen.ReferenceIdeal.Run
import proofs.«142744_j67044439490828_1_alg».proof.Proof.Gen.ReferenceIdeal.Read
import proofs.«142744_j67044439490828_1_alg».proof.Proof.KernelRun
import proofs.«142744_j67044439490828_1_alg».proof.Proof.Stages
import Idealize.ShloMosaic.Adequacy
import Idealize.ShloMosaic.Init

noncomputable section

namespace Cert.Proof

open Idealize.ShloMosaic Idealize.ShloMosaic.TcCoe Idealize.SL.Sem

/-- The kernel's run with its result at the reference's last stage of the argument arrays. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v59)
          = Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => ⟨(h c).1.trans (Cert.KernelIdeal.Stages.result m ρ c), (h c).2⟩)
    (Cert.KernelIdeal.RunValue.run (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at the reference's last stage of the argument arrays, which agree. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
